-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x2048x4096 .f32) (main_arg1 : FVec F S4096x4096 .f32) (main_arg2 : FVec F S8x4096 .f32) (main_arg3 : FVec F S4096x8 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S2x2048x4096 : Shape := ⟨3, ![2, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S4096x4096, .f32⟩
  | .hbm, ⟨15, _⟩ => ⟨S2x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S2x2048x4096_S4096x4096 : S2x2048x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  dot_S4096x8_S8x4096_S4096x4096_1_0_0_1_n_n_wf : DotDims.WF S4096x8 S8x4096 S4096x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S2x2048x4096, .f32⟩
  | .hbm, ⟨11, _⟩ => ⟨S1x1x4096, .f32⟩
  | .hbm, ⟨12, _⟩ => ⟨S2x2048x4096, .f32⟩
  | .hbm, ⟨13, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S4096x8_S8x4096_S4096x4096_1_0_0_1_n_n_wf : DotDims.WF S4096x8 S8x4096 S4096x4096 [1] [0] [0] [1] [] []
  dot_S2x2048x4096_S4096x4096_S2x2048x4096_2_1_01_0_n_n_wf : DotDims.WF S2x2048x4096 S4096x4096 S2x2048x4096 [2] [1] [0, 1] [0] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What one run of the kernel body leaves behind, case by case, as the body's own arithmetic of the blocks it loaded.

  The body keeps a [1024, 1024] accumulator in scratch memory across the four steps k = 0..3 of the contraction:
    * at k = 0 it stores the zero block into the accumulator, reads it back, and stores  zero + x·wᵀ;
    * at k = 1, 2 it stores  acc + x·wᵀ  over the accumulator the step before left;
    * at k = 3 it does the same and then stores  acc + bias  (the bias row repeated along the rows) into the output block.
  Every load and store goes through the whole buffer, so a stored value read back is the value itself.
-/
import proofs.«156091_j29566554866428_2_alg».proof.Proof.Gen.KernelIdeal.Frame
import Idealize.ShloMosaic.Lib.Pipeline.Value
import Idealize.ShloMosaic.Lib.Tactic

noncomputable section

namespace Cert.LoraKernel

open Cert.KernelIdeal Cert.KernelIdeal.Gen Idealize.ShloMosaic Idealize.ShloMosaic.TcCoe Idealize.SL.Sem Idealize.ShloMosaic.Tactic

variable {F : FTy → Type} [FloatOps F]

/-- The offsets of a whole-buffer access are all zero. -/
theorem zero_offsets : (![0, 0] : Fin 2 → Nat) = fun _ => 0 := funext fun a => by fin_cases a <;> rfl

/-- First step of a contraction (k = 0): the accumulator ends at the update of the zero block. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x1024) zero_offsets]

/-- A middle step (k = 1, 2): the accumulator ends at the update of what the step before left. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zero_offsets]
  simp only [View.readAt_eq_ld, harg3.read_unread, harg4.read_unread, harg7.read_unread, View.ld_unit_zero (S := S1024x1024) zero_offsets]

/-- The last step (k = 3): the accumulator is updated in the same way, -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zero_offsets]
  simp only [View.readAt_eq_ld, harg3.read_unread, harg4.read_unread, harg7.read_unread, View.ld_unit_zero (S := S1024x1024) zero_offsets]

/-- and the output block receives the updated accumulator plus the bias row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zero_offsets, View.readCov_unit_zero (S := S1024x1024) _ zero_offsets]
  simp only [View.readAt_eq_ld, harg3.read_unread, harg4.read_unread, harg5.read_unread, harg7.read_unread,
    View.ld_unit_zero (S := S1024x1024) zero_offsets, View.ld_unit_zero (S := S1x1024) zero_offsets]

end Cert.LoraKernel

end
-- ==== Proof.Payload.lean ====
import proofs.«156091_j29566554866428_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

/-!
  The three values the kernel body stores, read at one position (p, q) of a 1024 × 1024 block, over the extended reals:
  the zero block is 0 everywhere; the accumulation step is the old accumulator plus the product of row p of the first
  operand with row q of the second (both operands are contracted along their second axis, x · wᵀ); the last step adds
  the bias row's entry q to every row.
-/

namespace Cert.LoraKernel

open Cert.KernelIdeal Cert.KernelIdeal.Gen Idealize.ShloMosaic Idealize.ShloMosaic.ValueIdx

/-- The zero block: a broadcast of the word 0x00000000, which denotes the real number 0, cast to its own shape. -/
theorem pay1_apply (p q : Fin 1024) : k0_pay1 (F := Ideal) (ix2 p q) = 0 := by
  unfold k0_pay1
  rw [shapeCast_self]
  exact Ideal.ofBits_zero_f32

/-- The first operand's index at output position `i` and contraction position `c`: its row is the output's row … -/
theorem lhs_free (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

/-- … and its column is the contraction position. -/
theorem lhs_contr (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c

/-- The second operand's index: its row is the output's COLUMN (the operand enters transposed) … -/
theorem rhs_free (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- … and its column is the contraction position. -/
theorem rhs_contr (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- The accumulation step at (p, q): acc[p, q] + Σ_{e < 1024} x0[p, e] · x1[q, e]. The casts to the same shape are the
    identity, the product into the zero block is the bare sum over the one contracted axis, and that sum is re-indexed
    by the contracted coordinate. -/
theorem pay2_apply (x0 x1 : Vec Ideal S1024x1024 .bf16) (acc : Vec Ideal S1024x1024 .f32) (p q : Fin 1024) :
    k0_pay2 (F := Ideal) x0 x1 acc (ix2 p q) = acc (ix2 p q) + ∑ e : Fin 1024, x0 (ix2 p e) * x1 (ix2 q e) := by
  unfold k0_pay2
  rw [shapeCast_self, shapeCast_self, shapeCast_self]
  refine (addf_apply _ _ _).trans ?_
  refine congrArg (acc (ix2 p q) + ·) ?_
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_free _ _
    | ⟨1, _⟩ => exact (lhs_contr _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_free _ _
    | ⟨1, _⟩ => exact (rhs_contr _ _).trans hk)
  rw [el, er]

/-- The bias step at (p, q): acc[p, q] + b[0, q]. The row [1, 1024] broadcast to [1024, 1024] reads its unit axis at 0
    and its second axis at the column. -/
theorem pay3_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [shapeCast_self, shapeCast_self]
  refine (addf_apply _ _ _).trans ?_
  refine congrArg (acc (ix2 p q) + ·) ?_
  exact broadcastTo_apply b broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

end Cert.LoraKernel

end
-- ==== Proof.Spec.lean ====
/-
  The LoRA linear layer as functions on the extended reals, index by index.

  With X the activations flattened to [4096, 4096] (row r = 2048·b + s), W the fused weight [4096, 4096] and a bias,
  the layer is  y[r, o] = Σ_d X[r, d] · W[o, d] + bias[o]  (`lin2`, bias as a row [1, 4096]), and on the unflattened
  activations  y[b, s, o] = Σ_d x[b, s, d] · W[o, d] + bias[o]  (`lin3`, bias a vector).

  The contraction over d is also written as four consecutive blocks of 1024 added one after the other onto zero
  (`partialSum`): block k contributes `contrib … k` = Σ_{e < 1024} X[r, 1024·k + e] · W[o, 1024·k + e].
-/
import Idealize.ShloMosaic.PureOps.Ideal
import Idealize.ShloMosaic.Lib.ValueIdx

noncomputable section

namespace Cert.LoraSpec

open Idealize.ShloMosaic Idealize.ShloMosaic.ValueIdx

/-- [2, 2048, 4096]: the activations and the result. -/
abbrev SX3 : Shape := ⟨3, ![2, 2048, 4096]⟩
/-- [4096, 4096]: the flattened activations, the fused weight, the flattened result. -/
abbrev SM : Shape := ⟨2, ![4096, 4096]⟩
/-- [4096]: the bias. -/
abbrev SV : Shape := ⟨1, ![4096]⟩
/-- [1, 4096]: the bias as a row. -/
abbrev SR : Shape := ⟨2, ![1, 4096]⟩

/-- Row `r` of X against row `o` of W: Σ_d X[r, d] · W[o, d]. -/
def dotRow (X W : SM.Idx → EReal) (r o : Fin 4096) : EReal :=
  ∑ d : Fin 4096, X (ix2 r d) * W (ix2 o d)

/-- The layer on flattened activations, the bias a row: y[r, o] = Σ_d X[r, d] · W[o, d] + B[0, o]. -/
def lin2 (X W : SM.Idx → EReal) (B : SR.Idx → EReal) : SM.Idx → EReal := fun i =>
  dotRow X W ⟨(i 0).val, (i 0).isLt⟩ ⟨(i 1).val, (i 1).isLt⟩ + B (ix2 (0 : Fin 1) (⟨(i 1).val, (i 1).isLt⟩ : Fin 4096))

/-- The layer on [2, 2048, 4096] activations, the bias a vector: y[b, s, o] = Σ_d x[b, s, d] · W[o, d] + bias[o]. -/
def lin3 (x : SX3.Idx → EReal) (W : SM.Idx → EReal) (b : SV.Idx → EReal) : SX3.Idx → EReal := fun i =>
  (∑ d : Fin 4096, x (ix3 (⟨(i 0).val, (i 0).isLt⟩ : Fin 2) (⟨(i 1).val, (i 1).isLt⟩ : Fin 2048) d)
      * W (ix2 (⟨(i 2).val, (i 2).isLt⟩ : Fin 4096) d))
    + b (ix1 (⟨(i 2).val, (i 2).isLt⟩ : Fin 4096))

/-- Position `e` of block `k` along an axis of 4096 cut into blocks of 1024 (for k < 4 it is 1024·k + e). -/
def blkIx (k : ℕ) (e : Fin 1024) : Fin 4096 := ⟨(1024 * k + e.val) % 4096, Nat.mod_lt _ (by norm_num)⟩

/-- Block `k`'s share of the contraction: Σ_{e < 1024} X[r, 1024·k + e] · W[o, 1024·k + e]. -/
def contrib (X W : SM.Idx → EReal) (r o : Fin 4096) (k : ℕ) : EReal :=
  ∑ e : Fin 1024, X (ix2 r (blkIx k e)) * W (ix2 o (blkIx k e))

/-- The blocks' shares added one after the other onto zero: after block k, ((0 + c₀) + c₁) + … + c_k. -/
def partialSum (X W : SM.Idx → EReal) (r o : Fin 4096) : ℕ → EReal
  | 0 => 0 + contrib X W r o 0
  | k + 1 => partialSum X W r o k + contrib X W r o (k + 1)

theorem partialSum_zero (X W : SM.Idx → EReal) (r o : Fin 4096) :
    partialSum X W r o 0 = 0 + contrib X W r o 0 := rfl

theorem partialSum_succ (X W : SM.Idx → EReal) (r o : Fin 4096) (k : ℕ) :
    partialSum X W r o (k + 1) = partialSum X W r o k + contrib X W r o (k + 1) := rfl

/-- The flattened layer at row r, column o. -/
theorem lin2_apply (X W : SM.Idx → EReal) (B : SR.Idx → EReal) (r o : Fin 4096) :
    lin2 X W B (ix2 r o) = dotRow X W r o + B (ix2 (0 : Fin 1) o) := rfl

end Cert.LoraSpec

end
-- ==== Proof.Blocks.lean ====
/-
  Where the kernel's blocks sit in the arrays, and what those arrays hold when the kernel starts.

  The grid has 64 points t = 16·i + 4·j + k (i, j, k < 4): i is the row tile of the flattened activations and of the
  result, j the row tile of the fused weight (a column tile of the result), k the step of the contraction. So at point t
    * the activation block is rows 1024·i …, columns 1024·k … of X,
    * the weight block is rows 1024·j …, columns 1024·k … of W,
    * the bias block is columns 1024·j … of the bias row,
    * the result block is rows 1024·i …, columns 1024·j … of the result.
  Before the kernel starts, X is the activations [2, 2048, 4096] flattened to [4096, 4096] (row 2048·b + s), the bias
  row is the bias vector with a unit axis in front; changes of float format are the identity on the extended reals.
-/
import proofs.«156091_j29566554866428_2_alg».proof.Proof.Gen.KernelIdeal.Frame
import proofs.«156091_j29566554866428_2_alg».proof.Proof.Spec
import Idealize.ShloMosaic.Lib.Pipeline.Value
import Idealize.ShloMosaic.Lib.ValueIdx
import Idealize.ShloMosaic.Lib.StableHlo.Run

noncomputable section

namespace Cert.LoraKernel

open Cert.KernelIdeal Cert.KernelIdeal.Gen Idealize.ShloMosaic Idealize.ShloMosaic.TcCoe Idealize.SL.Sem
open Idealize.ShloMosaic.ValueIdx Idealize.ShloMosaic.StableHlo Cert.LoraSpec

variable (m : (ℓ : Loc nD τ sig) → Buf (Elt Ideal) ℓ)

/-- The block index of each window at point t, in closed form: decided over the 64 points. -/
theorem idx_facts : ∀ t : Fin cfg0.N,
    win0_0.index t (0 : Fin 2) = t.val / 16 ∧ win0_0.index t (1 : Fin 2) = t.val % 4
  ∧ win0_1.index t (0 : Fin 2) = t.val / 4 % 4 ∧ win0_1.index t (1 : Fin 2) = t.val % 4
  ∧ win0_2.index t (0 : Fin 2) = 0 ∧ win0_2.index t (1 : Fin 2) = t.val / 4 % 4
  ∧ win0_3.index t (0 : Fin 2) = t.val / 16 ∧ win0_3.index t (1 : Fin 2) = t.val / 4 % 4 :=
  (by decide +kernel : ∀ t : Fin grid0.N, _)

/-- The activation block at point t, entry (p, e): X at row 1024·(t / 16) + p, column 1024·(t % 4) + e. -/
theorem block_x (c : Dev nD) (t : Fin cfg0.N) (p e : Fin 1024) :
    (iblk m c 0 t : Vec Ideal S1024x1024 .bf16) (ix2 p e)
      = V m c main_v6 (ix2 (blkIx (t.val / 16) p) (blkIx (t.val % 4) e)) := by
  obtain ⟨e0, e1, -⟩ := idx_facts t
  have hN : t.val < 64 := lt_of_lt_of_eq t.isLt N_0
  show V m c main_v6 (((cfg0.win 0).blk t).view.emb (ix2 p e)) = _
  refine congrArg (V m c main_v6) (funext fun a => Fin.ext ?_)
  match a with
  | ⟨0, _⟩ => show win0_0.index t (0 : Fin 2) * 1024 + 1 * p.val = (1024 * (t.val / 16) + p.val) % 4096; rw [e0]; omega
  | ⟨1, _⟩ => show win0_0.index t (1 : Fin 2) * 1024 + 1 * e.val = (1024 * (t.val % 4) + e.val) % 4096; rw [e1]; omega

/-- The weight block at point t, entry (q, e): W at row 1024·(t / 4 % 4) + q, column 1024·(t % 4) + e. -/
theorem block_w (c : Dev nD) (t : Fin cfg0.N) (q e : Fin 1024) :
    (iblk m c 1 t : Vec Ideal S1024x1024 .bf16) (ix2 q e)
      = V m c main_v4 (ix2 (blkIx (t.val / 4 % 4) q) (blkIx (t.val % 4) e)) := by
  obtain ⟨-, -, e2, e3, -⟩ := idx_facts t
  have hN : t.val < 64 := lt_of_lt_of_eq t.isLt N_0
  show V m c main_v4 (((cfg0.win 1).blk t).view.emb (ix2 q e)) = _
  refine congrArg (V m c main_v4) (funext fun a => Fin.ext ?_)
  match a with
  | ⟨0, _⟩ => show win0_1.index t (0 : Fin 2) * 1024 + 1 * q.val = (1024 * (t.val / 4 % 4) + q.val) % 4096; rw [e2]; omega
  | ⟨1, _⟩ => show win0_1.index t (1 : Fin 2) * 1024 + 1 * e.val = (1024 * (t.val % 4) + e.val) % 4096; rw [e3]; omega

/-- The bias block at point t, entry (0, q): the bias row at column 1024·(t / 4 % 4) + q. -/
theorem block_b (c : Dev nD) (t : Fin cfg0.N) (q : Fin 1024) :
    (iblk m c 2 t : Vec Ideal S1x1024 .f32) (ix2 (0 : Fin 1) q)
      = V m c main_v7 (ix2 (0 : Fin 1) (blkIx (t.val / 4 % 4) q)) := by
  obtain ⟨-, -, -, -, e4, e5, -⟩ := idx_facts t
  have hN : t.val < 64 := lt_of_lt_of_eq t.isLt N_0
  show V m c main_v7 (((cfg0.win 2).blk t).view.emb (ix2 (0 : Fin 1) q)) = _
  refine congrArg (V m c main_v7) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = (1024 * (t.val / 4 % 4) + q.val) % 4096; rw [e5]; omega

/-- Entry (p, q) of the result block at point t is entry (1024·(t / 16) + p, 1024·(t / 4 % 4) + q) of the result. -/
theorem block_out (t : Fin cfg0.N) (p q : Fin 1024) :
    ((cfg0.win 3).blk t).view.emb (ix2 p q) = ix2 (blkIx (t.val / 16) p) (blkIx (t.val / 4 % 4) q) := by
  obtain ⟨-, -, -, -, -, -, e6, e7⟩ := idx_facts t
  have hN : t.val < 64 := lt_of_lt_of_eq t.isLt N_0
  refine funext fun a => Fin.ext ?_
  match a with
  | ⟨0, _⟩ => show win0_3.index t (0 : Fin 2) * 1024 + 1 * p.val = (1024 * (t.val / 16) + p.val) % 4096; rw [e6]; omega
  | ⟨1, _⟩ => show win0_3.index t (1 : Fin 2) * 1024 + 1 * q.val = (1024 * (t.val / 4 % 4) + q.val) % 4096; rw [e7]; omega

/-- X when the kernel starts: the activations flattened, row r = 2048·b + s holding x[b, s, ·]. -/
theorem entry_x (c : Dev nD) (b : Fin 2) (s : Fin 2048) (d r : Fin 4096) (hr : r.val = 2048 * b.val + s.val) :
    V m c main_v6 (ix2 r d) = m ((c : Thread nD τ).loc main_arg0) (ix3 b s d) := by
  have e : (V m c main_v6 : FVec Ideal S4096x4096 .bf16)
      = truncf (F := Ideal) .bf16 (shapeCast S4096x4096 (m ((c : Thread nD τ).loc main_arg0) : FVec Ideal S2x2048x4096 .f32) shapeCasts_S2x2048x4096_S4096x4096 : FVec Ideal S4096x4096 .f32) bitsLt_bf16_f32 := by
    show StableHlo.after hostOps0 (fun b => m (c, b)) (Proc.devRef .tc main_v6) = _
    after_results
    rfl
  rw [e]
  show shapeCast S4096x4096 (m ((c : Thread nD τ).loc main_arg0) : FVec Ideal S2x2048x4096 .f32) shapeCasts_S2x2048x4096_S4096x4096 (ix2 r d) = _
  refine shapeCast_apply _ _ _ _ ?_
  show (S2x2048x4096.rowMajor (ix3 b s d)).val = (S4096x4096.rowMajor (ix2 r d)).val
  rw [Shape.rowMajor_val_three, Shape.rowMajor_val_two]
  show (b.val * 2048 + s.val) * 4096 + d.val = r.val * 4096 + d.val
  omega

/-- The bias row when the kernel starts: the bias vector behind a unit axis. -/
theorem entry_b (c : Dev nD) (o : Fin 4096) :
    V m c main_v7 (ix2 (0 : Fin 1) o) = m ((c : Thread nD τ).loc main_arg4) (ix1 o) := by
  have e : (V m c main_v7 : FVec Ideal S1x4096 .f32)
      = shapeCast S1x4096 (m ((c : Thread nD τ).loc main_arg4) : FVec Ideal S4096 .f32) shapeCasts_S4096_S1x4096 := by
    show StableHlo.after hostOps0 (fun b => m (c, b)) (Proc.devRef .tc main_v7) = _
    after_results
    rfl
  rw [e]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

end Cert.LoraKernel

end
-- ==== Proof.Accum.lean ====
/-
  The accumulator over the grid: after point t = 16·i + 4·j + k the scratch accumulator holds, at (p, q), the first
  k + 1 blocks' shares of the contraction of row 1024·i + p of X with row 1024·j + q of W, added one after the other
  onto zero; and at the last step k = 3 the result block receives that sum plus the bias entry of column 1024·j + q.
  By induction on the point: a point with k = 0 starts from the zero block, every other point continues from what the
  point before (same i, j; step k − 1) left.
-/
import proofs.«156091_j29566554866428_2_alg».proof.Proof.Pieces
import proofs.«156091_j29566554866428_2_alg».proof.Proof.Payload
import proofs.«156091_j29566554866428_2_alg».proof.Proof.Blocks
import proofs.«156091_j29566554866428_2_alg».proof.Proof.Spec

noncomputable section

namespace Cert.LoraKernel

open Cert.KernelIdeal Cert.KernelIdeal.Gen Idealize.ShloMosaic Idealize.ShloMosaic.TcCoe Idealize.SL.Sem
open Idealize.ShloMosaic.ValueIdx Cert.LoraSpec

/-- One update of the accumulator at (p, q), when the two loaded blocks are block k of row r of X and of row o of W:
    the old value plus block k's share of the contraction. -/
theorem update_apply (x0 x1 : Vec Ideal S1024x1024 .bf16) (acc : Vec Ideal S1024x1024 .f32) (X W : SM.Idx → EReal)
    (r o : Fin 4096) (k : ℕ) (p q : Fin 1024)
    (hx : ∀ e : Fin 1024, x0 (ix2 p e) = X (ix2 r (blkIx k e))) (hw : ∀ e : Fin 1024, x1 (ix2 q e) = W (ix2 o (blkIx k e))) :
    k0_pay2 (F := Ideal) x0 x1 acc (ix2 p q) = acc (ix2 p q) + contrib X W r o k := by
  rw [pay2_apply x0 x1 acc p q]
  unfold contrib
  exact congrArg (acc (ix2 p q) + ·) (Finset.sum_congr rfl fun e _ => by rw [hx e, hw e])

variable (m : (ℓ : Loc nD τ sig) → Buf (Elt Ideal) ℓ)

/-- The accumulator after a point with k = 0. -/
theorem acc_first (c : Dev nD) (t : Fin cfg0.N) (h0 : t.val % 4 = 0) (h1 : ¬t.val % 4 = 3) :
    (outsAt0 m c t.val t.isLt).2 = k0_pay2 (iblk m c 0 t) (iblk m c 1 t) (k0_pay1 (F := Ideal)) := by
  refine (congrArg Prod.snd (outsAt0_A m c t h0 h1)).trans ?_
  dsimp only
  exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- The accumulator after a point with k = 1, 2. -/
theorem acc_middle (c : Dev nD) (t : Fin cfg0.N) (h0 : ¬t.val % 4 = 0) (h1 : ¬t.val % 4 = 3) :
    (outsAt0 m c t.val t.isLt).2 = k0_pay2 (iblk m c 0 t) (iblk m c 1 t) (outsAt0 m c (t.val - 1) (Nat.lt_of_le_of_lt (Nat.sub_le _ _) t.isLt)).2 := by
  refine (congrArg Prod.snd (outsAt0_B m c t h0 h1)).trans ?_
  dsimp only
  exact scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The accumulator after a point with k = 3, -/
theorem acc_last (c : Dev nD) (t : Fin cfg0.N) (h0 : ¬t.val % 4 = 0) (h1 : t.val % 4 = 3) :
    (outsAt0 m c t.val t.isLt).2 = k0_pay2 (iblk m c 0 t) (iblk m c 1 t) (outsAt0 m c (t.val - 1) (Nat.lt_of_le_of_lt (Nat.sub_le _ _) t.isLt)).2 := by
  refine (congrArg Prod.snd (outsAt0_C m c t h0 h1)).trans ?_
  dsimp only
  exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the result block there: the updated accumulator plus the bias row. -/
theorem res_last (c : Dev nD) (t : Fin cfg0.N) (h0 : ¬t.val % 4 = 0) (h1 : t.val % 4 = 3) :
    (outsAt0 m c t.val t.isLt).1 = k0_pay3 (k0_pay2 (iblk m c 0 t) (iblk m c 1 t) (outsAt0 m c (t.val - 1) (Nat.lt_of_le_of_lt (Nat.sub_le _ _) t.isLt)).2) (iblk m c 2 t) := by
  refine (congrArg Prod.fst (outsAt0_C m c t h0 h1)).trans ?_
  dsimp only
  exact out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- THE ACCUMULATOR, point by point: after point n it holds the first n % 4 + 1 blocks' shares added onto zero. -/
theorem acc_eq (c : Dev nD) : ∀ (n : ℕ) (hn : n < cfg0.N) (p q : Fin 1024),
    (outsAt0 m c n hn).2 (ix2 p q)
      = partialSum (V m c main_v6) (V m c main_v4) (blkIx (n / 16) p) (blkIx (n / 4 % 4) q) (n % 4)
  | 0, hn, p, q => by
    refine (congrFun (acc_first m c ⟨0, hn⟩ rfl (fun h => by have h' : (0 : ℕ) % 4 = 3 := h; omega)) (ix2 p q)).trans ?_
    refine (update_apply (iblk m c 0 ⟨0, hn⟩) (iblk m c 1 ⟨0, hn⟩) (k0_pay1 (F := Ideal)) (V m c main_v6) (V m c main_v4)
      (blkIx (0 / 16) p) (blkIx (0 / 4 % 4) q) (0 % 4) p q (fun e => block_x m c ⟨0, hn⟩ p e) (fun e => block_w m c ⟨0, hn⟩ q e)).trans ?_
    rw [pay1_apply p q]
    rfl
  | n + 1, hn, p, q => by
    have hN : n + 1 < 64 := lt_of_lt_of_eq hn N_0
    by_cases h0 : (n + 1) % 4 = 0
    · have h1 : ¬(n + 1) % 4 = 3 := by omega
      refine (congrFun (acc_first m c ⟨n + 1, hn⟩ h0 h1) (ix2 p q)).trans ?_
      refine (update_apply (iblk m c 0 ⟨n + 1, hn⟩) (iblk m c 1 ⟨n + 1, hn⟩) (k0_pay1 (F := Ideal)) (V m c main_v6) (V m c main_v4)
        (blkIx ((n + 1) / 16) p) (blkIx ((n + 1) / 4 % 4) q) ((n + 1) % 4) p q
        (fun e => block_x m c ⟨n + 1, hn⟩ p e) (fun e => block_w m c ⟨n + 1, hn⟩ q e)).trans ?_
      rw [pay1_apply p q, h0]
      rfl
    · have ih := acc_eq c n (Nat.lt_of_succ_lt hn) p q
      have e1 : (n + 1) / 16 = n / 16 := by omega
      have e2 : (n + 1) / 4 % 4 = n / 4 % 4 := by omega
      have e3 : (n + 1) % 4 = n % 4 + 1 := by omega
      have step : (outsAt0 m c (n + 1) hn).2 (ix2 p q)
          = (outsAt0 m c n (Nat.lt_of_succ_lt hn)).2 (ix2 p q)
            + contrib (V m c main_v6) (V m c main_v4) (blkIx ((n + 1) / 16) p) (blkIx ((n + 1) / 4 % 4) q) ((n + 1) % 4) := by
        by_cases h1 : (n + 1) % 4 = 3
        · refine (congrFun (acc_last m c ⟨n + 1, hn⟩ h0 h1) (ix2 p q)).trans ?_
          exact update_apply (iblk m c 0 ⟨n + 1, hn⟩) (iblk m c 1 ⟨n + 1, hn⟩) (outsAt0 m c n (Nat.lt_of_succ_lt hn)).2
            (V m c main_v6) (V m c main_v4) (blkIx ((n + 1) / 16) p) (blkIx ((n + 1) / 4 % 4) q) ((n + 1) % 4) p q
            (fun e => block_x m c ⟨n + 1, hn⟩ p e) (fun e => block_w m c ⟨n + 1, hn⟩ q e)
        · refine (congrFun (acc_middle m c ⟨n + 1, hn⟩ h0 h1) (ix2 p q)).trans ?_
          exact update_apply (iblk m c 0 ⟨n + 1, hn⟩) (iblk m c 1 ⟨n + 1, hn⟩) (outsAt0 m c n (Nat.lt_of_succ_lt hn)).2
            (V m c main_v6) (V m c main_v4) (blkIx ((n + 1) / 16) p) (blkIx ((n + 1) / 4 % 4) q) ((n + 1) % 4) p q
            (fun e => block_x m c ⟨n + 1, hn⟩ p e) (fun e => block_w m c ⟨n + 1, hn⟩ q e)
      rw [step, ih, e1, e2, e3, partialSum_succ]

/-- THE RESULT BLOCK at a point with k = 3: all four blocks' shares added onto zero, plus the bias entry. -/
theorem res_eq (c : Dev nD) (t : Fin cfg0.N) (h3 : t.val % 4 = 3) (p q : Fin 1024) :
    (outsAt0 m c t.val t.isLt).1 (ix2 p q)
      = partialSum (V m c main_v6) (V m c main_v4) (blkIx (t.val / 16) p) (blkIx (t.val / 4 % 4) q) 3
        + V m c main_v7 (ix2 (0 : Fin 1) (blkIx (t.val / 4 % 4) q)) := by
  have h0 : ¬t.val % 4 = 0 := by omega
  refine (congrFun (res_last m c t h0 h3) (ix2 p q)).trans ?_
  refine (pay3_apply (k0_pay2 (iblk m c 0 t) (iblk m c 1 t) (outsAt0 m c (t.val - 1) (Nat.lt_of_le_of_lt (Nat.sub_le _ _) t.isLt)).2) (iblk m c 2 t) p q).trans ?_
  rw [← congrFun (acc_last m c t h0 h3) (ix2 p q), acc_eq m c t.val t.isLt p q, block_b m c t q, h3]

end Cert.LoraKernel

end
-- ==== Proof.BlockSum.lean ====
/-
  A sum over 4096 positions, cut into four consecutive blocks of 1024.

  Only commutativity and associativity of + are used (an additive commutative monoid), and 0 + x = x:
  Σ_{d < 4096} f d = Σ_{k < 4} Σ_{e < 1024} f (1024·k + e); for k < 4 the block position (1024·k + e) mod 4096
  is 1024·k + e itself; hence the four blocks' shares, added one after the other onto zero, are the whole contraction.
-/
import proofs.«156091_j29566554866428_2_alg».proof.Proof.Spec
import Mathlib.Algebra.BigOperators.Fin

namespace Cert.LoraSpec

open Idealize.ShloMosaic Idealize.ShloMosaic.ValueIdx

/-- A sum over 4096 positions is the sum over four consecutive blocks of 1024. -/
theorem sum_four_blocks {M : Type*} [AddCommMonoid M] (f : Fin 4096 → M) :
    ∑ d : Fin 4096, f d
      = ∑ k : Fin 4, ∑ e : Fin 1024, f ⟨1024 * k.val + e.val, by omega⟩ := by
  have h := Equiv.sum_comp (finProdFinEquiv (m := 4) (n := 1024))
    (fun d : Fin (4 * 1024) => f ⟨d.val, by omega⟩)
  have h2 : (∑ d : Fin 4096, f d) = ∑ d : Fin (4 * 1024), f ⟨d.val, by omega⟩ := rfl
  rw [h2, ← h, Fintype.sum_prod_type]
  refine Finset.sum_congr rfl fun k _ => Finset.sum_congr rfl fun e _ => ?_
  congr 1
  apply Fin.ext
  simp [finProdFinEquiv]
  omega

/-- For k < 4 the position e of block k is 1024·k + e: the reduction mod 4096 does nothing. -/
theorem blkIx_lt (k : ℕ) (hk : k < 4) (e : Fin 1024) :
    blkIx k e = ⟨1024 * k + e.val, by omega⟩ := by
  apply Fin.ext
  simp only [blkIx]
  omega

/-- Block k's share, for k < 4, written over the positions 1024·k + e. -/
theorem contrib_lt (X W : SM.Idx → EReal) (r o : Fin 4096) (k : ℕ) (hk : k < 4) :
    contrib X W r o k
      = ∑ e : Fin 1024, X (ix2 r ⟨1024 * k + e.val, by omega⟩) * W (ix2 o ⟨1024 * k + e.val, by omega⟩) := by
  unfold contrib
  refine Finset.sum_congr rfl fun e _ => ?_
  rw [blkIx_lt k hk e]

/-- The four blocks' shares added one after the other onto zero give the whole contraction. -/
theorem partialSum_three (X W : SM.Idx → EReal) (r o : Fin 4096) :
    partialSum X W r o 3 = dotRow X W r o := by
  have hP : partialSum X W r o 3
      = contrib X W r o 0 + contrib X W r o 1 + contrib X W r o 2 + contrib X W r o 3 := by
    show 0 + contrib X W r o 0 + contrib X W r o 1 + contrib X W r o 2 + contrib X W r o 3 = _
    rw [zero_add]
  unfold dotRow
  rw [hP, sum_four_blocks (fun d => X (ix2 r d) * W (ix2 o d)), Fin.sum_univ_four,
    contrib_lt X W r o 0 (by norm_num), contrib_lt X W r o 1 (by norm_num),
    contrib_lt X W r o 2 (by norm_num), contrib_lt X W r o 3 (by norm_num)]
  rfl

end Cert.LoraSpec
-- ==== Proof.Weights.lean ====
/-
  The fused weight. Both programs compute it with the same host operations from the same three arrays:
  W = base + 2·(B·A), the product B·A contracted over the rank axis, the factor 2 one float word on both sides.
  On the extended reals the product does not depend on the precision it was asked at, and the kernel's change of
  float format afterwards is the identity; so the array the kernel's weight window is cut from is the reference's
  own fused weight, as a term: nothing of it is ever opened.
-/
import proofs.«156091_j29566554866428_2_alg».proof.Proof.Gen.KernelIdeal.Frame
import proofs.«156091_j29566554866428_2_alg».proof.Proof.Gen.ReferenceIdeal.Read
import Idealize.ShloMosaic.Lib.StableHlo.Run

noncomputable section

namespace Cert.LoraKernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- W when the kernel starts is the reference's fused weight of the same base, A and B. -/
theorem entry_w (c : Dev nD) :
    (V m c main_v4 : FVec Ideal S4096x4096 .bf16)
      = Cert.ReferenceIdeal.Read.val_main_v3 (F := Ideal) (m ((c : Thread nD τ).loc main_arg1))
          (m ((c : Thread nD τ).loc main_arg2)) (m ((c : Thread nD τ).loc main_arg3)) := by
  show StableHlo.after hostOps0 (fun b => m (c, b)) (Proc.devRef .tc main_v4) = _
  after_results
  rfl

end Cert.LoraKernel

end
-- ==== Proof.Final.lean ====
/-
  The kernel's result. Every result block is written back once, after the last step k = 3 of its contraction, and the
  blocks tile the flattened result [4096, 4096]; so the flattened result ends as the layer on the flattened
  activations, y[r, o] = Σ_d X[r, d] · W[o, d] + bias[o] — the four blocks' shares added onto zero are the whole
  contraction. The program then reshapes it to [2, 2048, 4096]: entry (b, s, o) is entry (2048·b + s, o) of the
  flattened result, where row 2048·b + s of X is x[b, s, ·]. So the program's result is the layer on the
  activations as given, with the reference's fused weight.
-/
import proofs.«156091_j29566554866428_2_alg».proof.Proof.Accum
import proofs.«156091_j29566554866428_2_alg».proof.Proof.BlockSum
import proofs.«156091_j29566554866428_2_alg».proof.Proof.Weights
import Idealize.ShloMosaic.Lib.Pipeline.Value
import Idealize.ShloMosaic.Lib.StableHlo.Run

noncomputable section

namespace Cert.LoraKernel

open Cert.KernelIdeal Cert.KernelIdeal.Gen Idealize.ShloMosaic Idealize.ShloMosaic.TcCoe Idealize.SL.Sem
open Idealize.ShloMosaic.ValueIdx Idealize.ShloMosaic.StableHlo Cert.LoraSpec
open Idealize.ShloMosaic.Pipeline (Dat)

variable (m : (ℓ : Loc nD τ sig) → Buf (Elt Ideal) ℓ) (ρ : Dev nD → PrngReg)

/-- The flattened result: the layer on X, W and the bias row as the kernel finds them. -/
def flat (c : Dev nD) : Buf (Elt Ideal) ((c : Thread nD τ).loc main_v8) :=
  lin2 (V m c main_v6) (V m c main_v4) (V m c main_v7)

/-- What a point with k = 3 writes back is its block of the flattened result. -/
theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  show (cfg0.win 3).cut (grid0.coords t) ((dats m 0 c).after 3 t) = _
  rw [after0_3]
  refine funext fun (j : S1024x1024.Idx) => ?_
  obtain ⟨p, q, rfl⟩ : ∃ (p q : Fin 1024), j = ix2 p q := ⟨j 0, j 1, eq_ix2 j⟩
  show (outsAt0 m c t.val t.isLt).1 (ix2 p q) = flat m c (((cfg0.win 3).blk t).view.emb (ix2 p q))
  rw [block_out t p q, res_eq m c t h3 p q, partialSum_three]
  rfl

/-- An entry of the result is in point t's block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- Every entry (r, o) of the result is written back: by the point 16·(r / 1024) + 4·(o / 1024) + 3. -/
theorem covered (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  have hlt : 16 * ((i 0).val / 1024) + 4 * ((i 1).val / 1024) + 3 < cfg0.N := by rw [hN]; omega
  obtain ⟨-, -, -, -, -, -, e6, e7⟩ := idx_facts ⟨16 * ((i 0).val / 1024) + 4 * ((i 1).val / 1024) + 3, hlt⟩
  refine ⟨⟨16 * ((i 0).val / 1024) + 4 * ((i 1).val / 1024) + 3, hlt⟩, (flush0_3 _).mpr (by show (16 * ((i 0).val / 1024) + 4 * ((i 1).val / 1024) + 3) % 4 = 3; omega), ?_⟩
  rw [mem_blk]
  intro a
  match a with
  | ⟨0, _⟩ =>
    show win0_3.index ⟨16 * ((i 0).val / 1024) + 4 * ((i 1).val / 1024) + 3, hlt⟩ (0 : Fin 2) * 1024 ≤ (i 0).val ∧ (i 0).val < win0_3.index ⟨16 * ((i 0).val / 1024) + 4 * ((i 1).val / 1024) + 3, hlt⟩ (0 : Fin 2) * 1024 + 1024
    rw [e6]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_3.index ⟨16 * ((i 0).val / 1024) + 4 * ((i 1).val / 1024) + 3, hlt⟩ (1 : Fin 2) * 1024 ≤ (i 1).val ∧ (i 1).val < win0_3.index ⟨16 * ((i 0).val / 1024) + 4 * ((i 1).val / 1024) + 3, hlt⟩ (1 : Fin 2) * 1024 + 1024
    rw [e7]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- So the flattened result array ends as the layer. -/
theorem final (c : Dev nD) : (dats m 0 c).arrAt 3 cfg0.N = flat m c :=
  (dats m 0 c).arrAt_eq_of_cover 3 (flat m c) (flushed_eq m c) covered

/-- The program's last operation reshapes the flattened result to [2, 2048, 4096]. -/
theorem tail_eq (c : Dev nD) :
    Pipeline.afterTail₀ cfgs (dats m) 0 (V0 m) [hostOps1] c main_v9
      = shapeCast S2x2048x4096 (flat m c : FVec Ideal S4096x4096 .f32) shapeCasts_S4096x4096_S2x2048x4096 := by
  have hw : Pipeline.withArrays (cfgs 0).spec c (V0 m c) (fun w => (dats m 0 c).arrAt w (cfgs 0).N) (Proc.devRef .tc main_v8)
      = flat m c :=
    (Pipeline.withArrays_arr spec0 launch0.win.arr_inj c _ _ 3).trans (final m c)
  unfold Pipeline.afterTail₀
  show StableHlo.after hostOps1 _ (Proc.devRef .tc main_v9) = _
  after_results
  rw [hw]
  rfl

/-- Entry (b, s, o) of the reshaped result is the layer on the activations as given. -/
theorem reshape_flat (c : Dev nD) :
    shapeCast S2x2048x4096 (flat m c : FVec Ideal S4096x4096 .f32) shapeCasts_S4096x4096_S2x2048x4096
      = lin3 (m ((c : Thread nD τ).loc main_arg0)) (V m c main_v4) (m ((c : Thread nD τ).loc main_arg4)) := by
  funext i
  have h0 : (i 0).val < 2 := (i 0).isLt
  have h1 : (i 1).val < 2048 := (i 1).isLt
  have h2 : (i 2).val < 4096 := (i 2).isLt
  have hr : 2048 * (i 0).val + (i 1).val < 4096 := by omega
  refine (shapeCast_apply (flat m c : FVec Ideal S4096x4096 .f32) shapeCasts_S4096x4096_S2x2048x4096 i
    (ix2 (⟨2048 * (i 0).val + (i 1).val, hr⟩ : Fin 4096) (⟨(i 2).val, h2⟩ : Fin 4096)) ?_).trans ?_
  · show (S4096x4096.rowMajor (ix2 (⟨2048 * (i 0).val + (i 1).val, hr⟩ : Fin 4096) (⟨(i 2).val, h2⟩ : Fin 4096))).val = (S2x2048x4096.rowMajor i).val
    rw [Shape.rowMajor_val_two, Shape.rowMajor_val_three]
    show (2048 * (i 0).val + (i 1).val) * 4096 + (i 2).val = ((i 0).val * 2048 + (i 1).val) * 4096 + (i 2).val
    omega
  · show lin2 (V m c main_v6) (V m c main_v4) (V m c main_v7) (ix2 (⟨2048 * (i 0).val + (i 1).val, hr⟩ : Fin 4096) (⟨(i 2).val, h2⟩ : Fin 4096)) = _
    rw [lin2_apply, entry_b m c ⟨(i 2).val, h2⟩]
    unfold dotRow lin3
    refine congrArg (· + m ((c : Thread nD τ).loc main_arg4) (ix1 (⟨(i 2).val, h2⟩ : Fin 4096))) (Finset.sum_congr rfl fun d _ => ?_)
    rw [entry_x m c ⟨(i 0).val, h0⟩ ⟨(i 1).val, h1⟩ d ⟨2048 * (i 0).val + (i 1).val, hr⟩ rfl]

/-- The program's result: the layer on the activations, the reference's fused weight, the bias. -/
def result (c : Dev nD) : Buf (Elt Ideal) ((c : Thread nD τ).loc main_v9) :=
  lin3 (m ((c : Thread nD τ).loc main_arg0))
    (Cert.ReferenceIdeal.Read.val_main_v3 (F := Ideal) (m ((c : Thread nD τ).loc main_arg1))
      (m ((c : Thread nD τ).loc main_arg2)) (m ((c : Thread nD τ).loc main_arg3)))
    (m ((c : Thread nD τ).loc main_arg4))

/-- THE RUN, read: every weakly fair execution terminates with the result array at `result` and the arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v9 (Pipeline.mem_restRefs_of main_v9 (by decide) (by decide))).trans (tail_eq m c)).trans
        ((reshape_flat m c).trans (congrArg (fun W => lin3 (m ((c : Thread nD τ).loc main_arg0)) W (m ((c : Thread nD τ).loc main_arg4))) (entry_w m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.LoraKernel

end
-- ==== Proof.RefSide.lean ====
/-
  The reference program is the layer  y[b, s, o] = Σ_d x[b, s, d] · W[o, d] + bias[o]  with W its fused weight.

  Read at an index (b, s, o): the last addition gives (contraction at (b, s, o)) + (broadcast bias at (b, s, o));
  the contraction is Σ_d x[b, s, d] · W[o, d]; the two broadcasts read the bias at o. The fused weight is never opened.
-/
import proofs.«156091_j29566554866428_2_alg».proof.Proof.Spec
import proofs.«156091_j29566554866428_2_alg».proof.Proof.Gen.ReferenceIdeal.Read

noncomputable section

namespace Cert.LoraRef

open Idealize.ShloMosaic Idealize.ShloMosaic.ValueIdx Idealize.ShloMosaic.TcCoe Idealize.SL.Sem Idealize.ShloMosaic.StableHlo
open Cert.ReferenceIdeal Cert.ReferenceIdeal.Read

/-- The reference's result is `lin3` of the activations, the fused weight and the bias. -/
theorem ref_eq_lin3 (x0 : (⟨Cert.ReferenceIdeal.S2x2048x4096, .f32⟩ : BufTy).Contents (Elt Ideal)) (x1 : (⟨Cert.ReferenceIdeal.S4096x4096, .f32⟩ : BufTy).Contents (Elt Ideal)) (x2 : (⟨Cert.ReferenceIdeal.S8x4096, .f32⟩ : BufTy).Contents (Elt Ideal)) (x3 : (⟨Cert.ReferenceIdeal.S4096x8, .f32⟩ : BufTy).Contents (Elt Ideal)) (x4 : (⟨Cert.ReferenceIdeal.S4096, .f32⟩ : BufTy).Contents (Elt Ideal)) :
      Cert.ReferenceIdeal.Read.val_main_v7 (F := Ideal) x0 x1 x2 x3 x4
        = Cert.LoraSpec.lin3 x0 (Cert.ReferenceIdeal.Read.val_main_v3 (F := Ideal) x1 x2 x3) x4 := by
  funext i
  rw [val_main_v7_apply, val_main_v4_apply, val_main_v6_apply, val_main_v5_apply]
  generalize val_main_v3 (F := Ideal) x1 x2 x3 = W
  unfold Cert.LoraSpec.lin3
  rw [Ideal.addf_def]
  have el : ∀ k : Fin 4096, lidx_main_v4 i k
      = ix3 (⟨(i 0).val, (i 0).isLt⟩ : Fin 2) (⟨(i 1).val, (i 1).isLt⟩ : Fin 2048) k := fun k =>
    funext fun a => by
      match a with
      | ⟨0, _⟩ => rfl
      | ⟨1, _⟩ => rfl
      | ⟨2, _⟩ => rfl
  have er : ∀ k : Fin 4096, ridx_main_v4 i k = ix2 (⟨(i 2).val, (i 2).isLt⟩ : Fin 4096) k := fun k =>
    funext fun a => by
      match a with
      | ⟨0, _⟩ => rfl
      | ⟨1, _⟩ => rfl
  have eb : idx_main_v5 (idx_main_v6 i) = ix1 (⟨(i 2).val, (i 2).isLt⟩ : Fin 4096) :=
    funext fun a => by
      match a with
      | ⟨0, _⟩ => rfl
  rw [eb]
  refine congrArg (· + x4 (ix1 (⟨(i 2).val, (i 2).isLt⟩ : Fin 4096))) ?_
  refine Finset.sum_congr rfl fun k _ => ?_
  rw [el k, er k]

end Cert.LoraRef

end
-- ==== Proof.lean ====
/-
  The LoRA linear layer  y = x · (base + 2·(B·A))ᵀ + bias  as a tiled kernel against its plain reference, on the
  extended reals.

  Both programs fuse the weight W = base + 2·(B·A) with the same host operations. The kernel flattens the activations
  to X [4096, 4096], tiles the result into 1024 × 1024 blocks and, for each block, adds the four 1024-wide pieces of the
  contraction Σ_d X[r, d] · W[o, d] one after the other onto a zero accumulator, adds the bias after the last piece, and
  reshapes the result back to [2, 2048, 4096]. The reference contracts over all of d at once and adds the bias. Over the
  extended reals a finite sum may be cut into consecutive blocks and re-associated freely (addition is commutative
  and associative, and 0 + s = s), so the two results are equal entry by entry; no property of the inputs is used.

  The three frame claims are the generated frames (the reference's is its generated run with the result dropped);
  nothing was rewritten by the idealization, so there is nothing to preserve beyond the text itself.
-/
import proofs.«156091_j29566554866428_2_alg».proof.Defs
import proofs.«156091_j29566554866428_2_alg».proof.Proof.Gen.Kernel
import proofs.«156091_j29566554866428_2_alg».proof.Proof.Gen.Kernel.Skeleton
import proofs.«156091_j29566554866428_2_alg».proof.Proof.Gen.Kernel.Launch
import proofs.«156091_j29566554866428_2_alg».proof.Proof.Gen.Kernel.Points
import proofs.«156091_j29566554866428_2_alg».proof.Proof.Gen.Kernel.Frame
import proofs.«156091_j29566554866428_2_alg».proof.Proof.Gen.KernelIdeal
import proofs.«156091_j29566554866428_2_alg».proof.Proof.Gen.KernelIdeal.Skeleton
import proofs.«156091_j29566554866428_2_alg».proof.Proof.Gen.KernelIdeal.Launch
import proofs.«156091_j29566554866428_2_alg».proof.Proof.Gen.KernelIdeal.Points
import proofs.«156091_j29566554866428_2_alg».proof.Proof.Gen.KernelIdeal.Frame
import proofs.«156091_j29566554866428_2_alg».proof.Proof.Gen.ReferenceIdeal
import proofs.«156091_j29566554866428_2_alg».proof.Proof.Gen.ReferenceIdeal.Run
import proofs.«156091_j29566554866428_2_alg».proof.Proof.Gen.ReferenceIdeal.Read
import proofs.«156091_j29566554866428_2_alg».proof.Proof.Gen.Pre_finite_inputs
import proofs.«156091_j29566554866428_2_alg».proof.Proof.Final
import proofs.«156091_j29566554866428_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the same activations, fused weight and bias: the kernel by its accumulation
    over the grid read back as the whole contraction, the reference by its operations read at an index. -/
theorem algebraic : Cert.algebraic_KernelIdeal_ReferenceIdeal := by
  intro m ρ m' ρ' _ hagree
  refine ⟨fun c => Cert.LoraKernel.result m c, Cert.LoraKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.LoraRef.ref_eq_lin3, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
